-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2x64 : Shape := ⟨3, ![10000, 2, 64]⟩
abbrev S10000x64 : Shape := ⟨2, ![10000, 64]⟩
abbrev S64x128 : Shape := ⟨2, ![64, 128]⟩
abbrev S64 : Shape := ⟨1, ![64]⟩
abbrev S_ : Shape := ⟨0, ![]⟩

class Facts : Prop where
  bcast_S_S10000x2x64 : S_.BroadcastsInDim S10000x2x64 (![] : Fin 0 → Fin S10000x2x64.rank)
  reducesTo_S10000x2x64_S_d0_1_2 : S10000x2x64.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S10000x2x64 .f32) (main_arg1 : FVec F S10000x64 .f32) (main_arg2 : IVec S10000x64 32) (main_arg3 : FVec F S64x128 .f32) (main_arg4 : FVec F S64 .f32) : IVec S_ 1 :=
  let main_v0 : FVec F S10000x2x64 .f32 := Host.absf main_arg0
  let main_cst : FVec F S_ .f32 := constant S_ .f32 0x7F800000#32
  let main_v1 : FVec F S10000x2x64 .f32 := broadcastInDim S10000x2x64 ![] bcast_S_S10000x2x64 main_cst
  let main_v2 : IVec S10000x2x64 1 := cmpf .olt main_v0 main_v1
  let main_c : IVec S_ 1 := constantI S_ 1 1#1
  let main_v3 : IVec S_ 1 := (fun x v => Host.reduce IntOp.andi x v reducesTo_S10000x2x64_S_d0_1_2 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S10000x2x64 : Shape := ⟨3, ![10000, 2, 64]⟩
abbrev S10000x64 : Shape := ⟨2, ![10000, 64]⟩
abbrev S64x128 : Shape := ⟨2, ![64, 128]⟩
abbrev S64 : Shape := ⟨1, ![64]⟩
abbrev S2x10000x64 : Shape := ⟨3, ![2, 10000, 64]⟩
abbrev S_ : Shape := ⟨0, ![]⟩
abbrev S10000x64x1 : Shape := ⟨3, ![10000, 64, 1]⟩
abbrev S2x10000x64x64 : Shape := ⟨4, ![2, 10000, 64, 64]⟩
abbrev S64x64 : Shape := ⟨2, ![64, 64]⟩
abbrev S1x64 : Shape := ⟨2, ![1, 64]⟩
abbrev S1x200x64x64 : Shape := ⟨4, ![1, 200, 64, 64]⟩
abbrev S200x64 : Shape := ⟨2, ![200, 64]⟩
abbrev S1x200x64 : Shape := ⟨3, ![1, 200, 64]⟩
abbrev S200x64x64 : Shape := ⟨3, ![200, 64, 64]⟩
abbrev S200x64x1 : Shape := ⟨3, ![200, 64, 1]⟩
abbrev S12800x64 : Shape := ⟨2, ![12800, 64]⟩

abbrev nBuf : Space → Nat
  | .hbm => 20
  | .vmem => 11
  | .smem => 0
  | _ => 0

abbrev bufTy : (tb : Table) → Fin (tcTables nBuf tb) → BufTy
  | .hbm, ⟨0, _⟩ => ⟨S10000x2x64, .f32⟩
  | .hbm, ⟨1, _⟩ => ⟨S10000x64, .f32⟩
  | .hbm, ⟨2, _⟩ => ⟨S10000x64, .i32⟩
  | .hbm, ⟨3, _⟩ => ⟨S64x128, .f32⟩
  | .hbm, ⟨4, _⟩ => ⟨S64, .f32⟩
  | .hbm, ⟨5, _⟩ => ⟨S2x10000x64, .f32⟩
  | .hbm, ⟨6, _⟩ => ⟨S_, .i32⟩
  | .hbm, ⟨7, _⟩ => ⟨S10000x64, .i32⟩
  | .hbm, ⟨8, _⟩ => ⟨S10000x64, .i1⟩
  | .hbm, ⟨9, _⟩ => ⟨S_, .i32⟩
  | .hbm, ⟨10, _⟩ => ⟨S10000x64, .i32⟩
  | .hbm, ⟨11, _⟩ => ⟨S10000x64, .i32⟩
  | .hbm, ⟨12, _⟩ => ⟨S10000x64, .i32⟩
  | .hbm, ⟨13, _⟩ => ⟨S10000x64x1, .i32⟩
  | .hbm, ⟨14, _⟩ => ⟨S2x10000x64x64, .f32⟩
  | .hbm, ⟨15, _⟩ => ⟨S64x64, .f32⟩
  | .hbm, ⟨16, _⟩ => ⟨S64x64, .f32⟩
  | .hbm, ⟨17, _⟩ => ⟨S1x64, .f32⟩
  | .hbm, ⟨18, _⟩ => ⟨S2x10000x64, .f32⟩
  | .hbm, ⟨19, _⟩ => ⟨S10000x2x64, .f32⟩
  | .local _ .vmem, ⟨0, _⟩ => ⟨S1x200x64x64, .f32⟩
  | .local _ .vmem, ⟨1, _⟩ => ⟨S1x200x64x64, .f32⟩
  | .local _ .vmem, ⟨2, _⟩ => ⟨S200x64, .f32⟩
  | .local _ .vmem, ⟨3, _⟩ => ⟨S200x64, .f32⟩
  | .local _ .vmem, ⟨4, _⟩ => ⟨S1x200x64, .f32⟩
  | .local _ .vmem, ⟨5, _⟩ => ⟨S1x200x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x200x64, .f32⟩
  | .local _ .vmem, ⟨10, _⟩ => ⟨S1x200x64, .f32⟩
  | _, _ => ⟨S10000x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 50], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x200x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x200x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S10000x2x64_S2x10000x64_1_0_2 : S10000x2x64.Transposes [1, 0, 2] S2x10000x64
  bcast_S_S10000x64 : S_.BroadcastsInDim S10000x64 (![] : Fin 0 → Fin S10000x64.rank)
  bcast_S10000x64_S10000x64x1_0_1 : S10000x64.BroadcastsInDim S10000x64x1 (![0, 1] : Fin 2 → Fin S10000x64x1.rank)
  slices_S64x128_S64x64_0_0 : S64x128.Slices ![0, 0] S64x64
  slices_S64x128_S64x64_0_64 : S64x128.Slices ![0, 64] S64x64
  shapeCasts_S64_S1x64 : S64.ShapeCasts S1x64
  inb_S1x200x64x64_S1x200x64x64_0_0_0_0 : ∀ a, (![0, 0, 0, 0] : Fin 4 → Nat) a + S1x200x64x64.size a ≤ S1x200x64x64.size a
  h_S1x200x64x64 : 0 < S1x200x64x64.numel
  shapeCasts_S1x200x64x64_S200x64x64 : S1x200x64x64.ShapeCasts S200x64x64
  inb_S200x64_S200x64_0_0 : ∀ a, (![0, 0] : Fin 2 → Nat) a + S200x64.size a ≤ S200x64.size a
  h_S200x64 : 0 < S200x64.numel
  shapeCasts_S200x64_S200x64x1 : S200x64.ShapeCasts S200x64x1
  broadcasts_S200x64x1_S200x64x64 : S200x64x1.Broadcasts S200x64x64
  bitsLt_bf16_f32 : FTy.bits .bf16 < FTy.bits .f32
  shapeCasts_S200x64x64_S12800x64 : S200x64x64.ShapeCasts S12800x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S12800x64_S200x64x64 : S12800x64.ShapeCasts S200x64x64
  reduces_S200x64x64_S200x64 : S200x64x64.Reduces [1] S200x64
  inb_S1x200x64_S1x200x64_0_0_0 : ∀ a, (![0, 0, 0] : Fin 3 → Nat) a + S1x200x64.size a ≤ S1x200x64.size a
  h_S1x200x64 : 0 < S1x200x64.numel
  shapeCasts_S1x200x64_S200x64 : S1x200x64.ShapeCasts S200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  shapeCasts_S200x64_S1x200x64 : S200x64.ShapeCasts S1x200x64
  transposes_S2x10000x64_S10000x2x64_1_0_2 : S2x10000x64.Transposes [1, 0, 2] S10000x2x64
  gather_S2x10000x64_S10000x64x1_S2x10000x64x64_03_1_n_n_1_2_2164_wf : GatherDims.WF S2x10000x64 S10000x64x1 S2x10000x64x64 [0, 3] [1] [] [1] [] 2 ![2, 1, 64]
  dot_S12800x64_S64x64_S12800x64_1_1_0_0_n_n_wf : DotDims.WF S12800x64 S64x64 S12800x64 [1] [1] [0] [0] [] []
  dot_S200x64_S64x64_S200x64_1_1_0_0_n_n_wf : DotDims.WF S200x64 S64x64 S200x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x64x64.size a ≤ S2x10000x64x64.size a
  hwx0_0 : ∀ i : grid0.Coords, EltTy.bits .f32 = 32 ∨ (Rect.block (s := S2x10000x64x64) S1x200x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S10000x64.size a
  hwx0_1 : ∀ i : grid0.Coords, EltTy.bits .f32 = 32 ∨ (Rect.block (s := S10000x64) S200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x64.size a ≤ S2x10000x64.size a
  hwx0_2 : ∀ i : grid0.Coords, EltTy.bits .f32 = 32 ∨ (Rect.block (s := S2x10000x64) S1x200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x200x64.size a ≤ S2x10000x64.size a
  hwx0_6 : ∀ i : grid0.Coords, EltTy.bits .f32 = 32 ∨ (Rect.block (s := S2x10000x64) S1x200x64.size (cc0_transform_6 i) (hinb0_6 i)).WholeWords (EltTy.packing .f32)

variable [Facts₀]

def gather_S2x10000x64_S10000x64x1_S2x10000x64x64_03_1_n_n_1_2_2164 : GatherDims S2x10000x64 S10000x64x1 S2x10000x64x64 where
  offsetDims := [0, 3]
  collapsedSliceDims := [1]
  operandBatchingDims := []
  startIndicesBatchingDims := []
  startIndexMap := [1]
  indexVectorDim := 2
  sliceSizes := ![2, 1, 64]
  wf := gather_S2x10000x64_S10000x64x1_S2x10000x64x64_03_1_n_n_1_2_2164_wf
def dot_S12800x64_S64x64_S12800x64_1_1_0_0_n_n : DotDims S12800x64 S64x64 S12800x64 where
  lhsContracting := [1]
  rhsContracting := [1]
  lhsNonContracting := [0]
  rhsNonContracting := [0]
  lhsBatch := []
  rhsBatch := []
  wf := dot_S12800x64_S64x64_S12800x64_1_1_0_0_n_n_wf
def dot_S200x64_S64x64_S200x64_1_1_0_0_n_n : DotDims S200x64 S64x64 S200x64 where
  lhsContracting := [1]
  rhsContracting := [1]
  lhsNonContracting := [0]
  rhsNonContracting := [0]
  lhsBatch := []
  rhsBatch := []
  wf := dot_S200x64_S64x64_S200x64_1_1_0_0_n_n_wf

abbrev win0_0 : Pipeline.Window sig grid0 :=
  Pipeline.Window.ofSpec (Memref.whole main_v7) S1x200x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x200x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x2x64 : Shape := ⟨3, ![10000, 2, 64]⟩
abbrev S10000x64 : Shape := ⟨2, ![10000, 64]⟩
abbrev S64x128 : Shape := ⟨2, ![64, 128]⟩
abbrev S64 : Shape := ⟨1, ![64]⟩
abbrev S2x10000x64 : Shape := ⟨3, ![2, 10000, 64]⟩
abbrev S_ : Shape := ⟨0, ![]⟩
abbrev S10000x64x1 : Shape := ⟨3, ![10000, 64, 1]⟩
abbrev S2x10000x64x64 : Shape := ⟨4, ![2, 10000, 64, 64]⟩
abbrev S1x10000x64x1 : Shape := ⟨4, ![1, 10000, 64, 1]⟩
abbrev S64x64 : Shape := ⟨2, ![64, 64]⟩
abbrev S2x10000x1x64 : Shape := ⟨4, ![2, 10000, 1, 64]⟩
abbrev S1x1x1x64 : Shape := ⟨4, ![1, 1, 1, 64]⟩

abbrev nBuf : Space → Nat
  | .hbm => 34
  | .vmem => 0
  | .smem => 0
  | _ => 0

abbrev bufTy : (tb : Table) → Fin (tcTables nBuf tb) → BufTy
  | .hbm, ⟨0, _⟩ => ⟨S10000x2x64, .f32⟩
  | .hbm, ⟨1, _⟩ => ⟨S10000x64, .f32⟩
  | .hbm, ⟨2, _⟩ => ⟨S10000x64, .i32⟩
  | .hbm, ⟨3, _⟩ => ⟨S64x128, .f32⟩
  | .hbm, ⟨4, _⟩ => ⟨S64, .f32⟩
  | .hbm, ⟨5, _⟩ => ⟨S2x10000x64, .f32⟩
  | .hbm, ⟨6, _⟩ => ⟨S_, .i32⟩
  | .hbm, ⟨7, _⟩ => ⟨S10000x64, .i32⟩
  | .hbm, ⟨8, _⟩ => ⟨S10000x64, .i1⟩
  | .hbm, ⟨9, _⟩ => ⟨S_, .i32⟩
  | .hbm, ⟨10, _⟩ => ⟨S10000x64, .i32⟩
  | .hbm, ⟨11, _⟩ => ⟨S10000x64, .i32⟩
  | .hbm, ⟨12, _⟩ => ⟨S10000x64, .i32⟩
  | .hbm, ⟨13, _⟩ => ⟨S10000x64x1, .i32⟩
  | .hbm, ⟨14, _⟩ => ⟨S2x10000x64x64, .f32⟩
  | .hbm, ⟨15, _⟩ => ⟨S1x10000x64x1, .f32⟩
  | .hbm, ⟨16, _⟩ => ⟨S2x10000x64x64, .f32⟩
  | .hbm, ⟨17, _⟩ => ⟨S2x10000x64x64, .f32⟩
  | .hbm, ⟨18, _⟩ => ⟨S64x64, .f32⟩
  | .hbm, ⟨19, _⟩ => ⟨S64x64, .f32⟩
  | .hbm, ⟨20, _⟩ => ⟨S2x10000x64, .f32⟩
  | .hbm, ⟨21, _⟩ => ⟨S2x10000x64x64, .f32⟩
  | .hbm, ⟨22, _⟩ => ⟨S2x10000x1x64, .f32⟩
  | .hbm, ⟨23, _⟩ => ⟨S2x10000x64x64, .f32⟩
  | .hbm, ⟨24, _⟩ => ⟨S2x10000x64x64, .f32⟩
  | .hbm, ⟨25, _⟩ => ⟨S1x1x1x64, .f32⟩
  | .hbm, ⟨26, _⟩ => ⟨S2x10000x64x64, .f32⟩
  | .hbm, ⟨27, _⟩ => ⟨S2x10000x64x64, .f32⟩
  | .hbm, ⟨28, _⟩ => ⟨S_, .f32⟩
  | .hbm, ⟨29, _⟩ => ⟨S2x10000x64, .f32⟩
  | .hbm, ⟨30, _⟩ => ⟨S_, .f32⟩
  | .hbm, ⟨31, _⟩ => ⟨S2x10000x64, .f32⟩
  | .hbm, ⟨32, _⟩ => ⟨S2x10000x64, .f32⟩
  | .hbm, ⟨33, _⟩ => ⟨S10000x2x64, .f32⟩
  | _, _ => ⟨S10000x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  transposes_S10000x2x64_S2x10000x64_1_0_2 : S10000x2x64.Transposes [1, 0, 2] S2x10000x64
  bcast_S_S10000x64 : S_.BroadcastsInDim S10000x64 (![] : Fin 0 → Fin S10000x64.rank)
  bcast_S10000x64_S10000x64x1_0_1 : S10000x64.BroadcastsInDim S10000x64x1 (![0, 1] : Fin 2 → Fin S10000x64x1.rank)
  bcast_S10000x64_S1x10000x64x1_1_2 : S10000x64.BroadcastsInDim S1x10000x64x1 (![1, 2] : Fin 2 → Fin S1x10000x64x1.rank)
  bcast_S1x10000x64x1_S2x10000x64x64_0_1_2_3 : S1x10000x64x1.BroadcastsInDim S2x10000x64x64 (![0, 1, 2, 3] : Fin 4 → Fin S2x10000x64x64.rank)
  slices_S64x128_S64x64_0_0 : S64x128.Slices ![0, 0] S64x64
  slices_S64x128_S64x64_0_64 : S64x128.Slices ![0, 64] S64x64
  bcast_S2x10000x64_S2x10000x1x64_0_1_3 : S2x10000x64.BroadcastsInDim S2x10000x1x64 (![0, 1, 3] : Fin 3 → Fin S2x10000x1x64.rank)
  bcast_S2x10000x1x64_S2x10000x64x64_0_1_2_3 : S2x10000x1x64.BroadcastsInDim S2x10000x64x64 (![0, 1, 2, 3] : Fin 4 → Fin S2x10000x64x64.rank)
  bcast_S64_S1x1x1x64_3 : S64.BroadcastsInDim S1x1x1x64 (![3] : Fin 1 → Fin S1x1x1x64.rank)
  bcast_S1x1x1x64_S2x10000x64x64_0_1_2_3 : S1x1x1x64.BroadcastsInDim S2x10000x64x64 (![0, 1, 2, 3] : Fin 4 → Fin S2x10000x64x64.rank)
  reducesTo_S2x10000x64x64_S2x10000x64_d2 : S2x10000x64x64.ReducesTo [2] S2x10000x64
  h_S_ : 0 < S_.numel
  bcast_S_S2x10000x64 : S_.BroadcastsInDim S2x10000x64 (![] : Fin 0 → Fin S2x10000x64.rank)
  transposes_S2x10000x64_S10000x2x64_1_0_2 : S2x10000x64.Transposes [1, 0, 2] S10000x2x64
  gather_S2x10000x64_S10000x64x1_S2x10000x64x64_03_1_n_n_1_2_2164_wf : GatherDims.WF S2x10000x64 S10000x64x1 S2x10000x64x64 [0, 3] [1] [] [1] [] 2 ![2, 1, 64]
  dot_S2x10000x64_S64x64_S2x10000x64_2_1_01_0_n_n_wf : DotDims.WF S2x10000x64 S64x64 S2x10000x64 [2] [1] [0, 1] [0] [] []
  dot_S2x10000x64x64_S64x64_S2x10000x64x64_3_1_012_0_n_n_wf : DotDims.WF S2x10000x64x64 S64x64 S2x10000x64x64 [3] [1] [0, 1, 2] [0] [] []

variable [Facts₀]

def gather_S2x10000x64_S10000x64x1_S2x10000x64x64_03_1_n_n_1_2_2164 : GatherDims S2x10000x64 S10000x64x1 S2x10000x64x64 where
  offsetDims := [0, 3]
  collapsedSliceDims := [1]
  operandBatchingDims := []
  startIndicesBatchingDims := []
  startIndexMap := [1]
  indexVectorDim := 2
  sliceSizes := ![2, 1, 64]
  wf := gather_S2x10000x64_S10000x64x1_S2x10000x64x64_03_1_n_n_1_2_2164_wf
def dot_S2x10000x64_S64x64_S2x10000x64_2_1_01_0_n_n : DotDims S2x10000x64 S64x64 S2x10000x64 where
  lhsContracting := [2]
  rhsContracting := [1]
  lhsNonContracting := [0, 1]
  rhsNonContracting := [0]
  lhsBatch := []
  rhsBatch := []
  wf := dot_S2x10000x64_S64x64_S2x10000x64_2_1_01_0_n_n_wf
def dot_S2x10000x64x64_S64x64_S2x10000x64x64_3_1_012_0_n_n : DotDims S2x10000x64x64 S64x64 S2x10000x64x64 where
  lhsContracting := [3]
  rhsContracting := [1]
  lhsNonContracting := [0, 1, 2]
  rhsNonContracting := [0]
  lhsBatch := []
  rhsBatch := []
  wf := dot_S2x10000x64x64_S64x64_S2x10000x64x64_3_1_012_0_n_n_wf

class Facts : Prop extends Facts₀ where

variable [Facts]
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: when every float argument passes the test all(|x| < +inf), every entry of the features,
  of the anchor scores, of the weight table and of the bias is a real number. The printed test is the conjunction of
  the four arrays' tests; a conjunction of one-bit words is 1 exactly when both are.
-/
import proofs.«124689_j8924942041314_1_alg».proof.Pre_finite_inputs
import proofs.«124689_j8924942041314_1_alg».proof.Proof.LibFinite
import Idealize.ShloMosaic.Lib.Affine

noncomputable section

namespace Cert.AnchorMean

open Idealize.ShloMosaic Idealize.ShloMosaic.ValueIdx Cert.Pre_finite_inputs

variable [Cert.Pre_finite_inputs.Facts]
open Cert.Pre_finite_inputs.Facts

/-- The four float arguments hold real numbers when the printed precondition is all ones. -/
theorem reals_of_pre (x0 : FVec Ideal S10000x2x64 .f32) (x1 : FVec Ideal S10000x64 .f32) (x2 : IVec S10000x64 32)
    (x3 : FVec Ideal S64x128 .f32) (x4 : FVec Ideal S64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x4 i = (r : EReal)) := by
  have h0 := congrFun h ix0
  dsimp only [fn, fn_part1] at h0
  obtain ⟨h012, h4⟩ := IntOp.andi_eq_one.1 h0
  obtain ⟨h01, h3⟩ := IntOp.andi_eq_one.1 h012
  obtain ⟨h0', h1⟩ := IntOp.andi_eq_one.1 h01
  exact ⟨Cert.LibFinite.real_of_all x0 _ _ _ ix0 h0', Cert.LibFinite.real_of_all x1 _ _ _ ix0 h1,
    Cert.LibFinite.real_of_all x3 _ _ _ ix0 h3, Cert.LibFinite.real_of_all x4 _ _ _ ix0 h4⟩

end Cert.AnchorMean

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.Spec.lean ====
/-
  The layer as one function of its arrays, and the law that joins its two arrangements.

  For a batch β, a node n and an output channel o, with the anchor rows A(β, n, a, ·) (the a-th row picked for node n
  out of the feature table), the anchor scores dm(n, a), the node's own row xb(β, n, ·), the two halves wa, ws of the
  weight table and the bias:
      msg(a) = Σ_f (A(β,n,a,f) · dm(n,a)) · wa(o,f)         the a-th anchor's message
      own    = Σ_f xb(β,n,f) · ws(o,f)                      the node's own term
      out    = ((Σ_a msg(a)) · 2⁻⁶ + own) + bias(o)         the mean over the 64 anchors, then the two other terms.
  The other arrangement adds the node's own term and the bias to every message first and divides the sum by 64:
      out'   = (0 + Σ_a ((msg(a) + own) + bias(o))) / 64.
  When the messages, the node's own term and the bias are real numbers the two agree: 64 copies of own + bias, divided
  by 64, are own + bias, and 2⁻⁶ is exactly 1/64. On the extended reals this needs the entries to be real (an infinite
  message and an opposite infinite own term would cancel differently in the two arrangements).
-/
import Idealize.ShloMosaic.PureOps.Ideal
import Idealize.ShloMosaic.PureOps.Ideal.Laws
import Idealize.ShloMosaic.Lib.ValueIdx
import proofs.«124689_j8924942041314_1_alg».proof.Proof.LibExtReals

noncomputable section

open scoped BigOperators

namespace Cert.AnchorMean

open Idealize.ShloMosaic Idealize.ShloMosaic.ValueIdx

/-- The gathered anchor rows [2, 10000, 64, 64]. -/
abbrev TA : Shape := ⟨4, ![2, 10000, 64, 64]⟩
/-- The anchor scores [10000, 64]. -/
abbrev TD : Shape := ⟨2, ![10000, 64]⟩
/-- The features, batch first, and the result before it is put back node first: [2, 10000, 64]. -/
abbrev TX : Shape := ⟨3, ![2, 10000, 64]⟩
/-- One half of the weight table [64, 64]. -/
abbrev TW : Shape := ⟨2, ![64, 64]⟩
/-- The bias [64]. -/
abbrev TB : Shape := ⟨1, ![64]⟩

/-- The a-th anchor's message for (β, n, o). -/
def msg (A : TA.Idx → EReal) (dm : TD.Idx → EReal) (wa : TW.Idx → EReal) (β : Fin 2) (n : Fin 10000) (o : Fin 64)
    (a : Fin 64) : EReal :=
  ∑ f : Fin 64, (A (ix4 β n a f) * dm (ix2 n a)) * wa (ix2 o f)

/-- The node's own term for (β, n, o). -/
def own (xb : TX.Idx → EReal) (ws : TW.Idx → EReal) (β : Fin 2) (n : Fin 10000) (o : Fin 64) : EReal :=
  ∑ f : Fin 64, xb (ix3 β n f) * ws (ix2 o f)

/-- The layer at (β, n, o): the mean of the messages, then the node's own term, then the bias. -/
def layerAt (A : TA.Idx → EReal) (dm : TD.Idx → EReal) (xb : TX.Idx → EReal) (wa ws : TW.Idx → EReal) (b : TB.Idx → EReal)
    (β : Fin 2) (n : Fin 10000) (o : Fin 64) : EReal :=
  ((∑ a : Fin 64, msg A dm wa β n o a) * Ideal.ofBits .f32 0x3C800000#32 + own xb ws β n o) + b (ix1 o)

/-- The layer, batch first. -/
def layer (A : TA.Idx → EReal) (dm : TD.Idx → EReal) (xb : TX.Idx → EReal) (wa ws : TW.Idx → EReal) (b : TB.Idx → EReal) :
    TX.Idx → EReal :=
  fun j => layerAt A dm xb wa ws b (j 0) (j 1) (j 2)

theorem layer_apply (A : TA.Idx → EReal) (dm : TD.Idx → EReal) (xb : TX.Idx → EReal) (wa ws : TW.Idx → EReal) (b : TB.Idx → EReal)
    (β : Fin 2) (n : Fin 10000) (o : Fin 64) :
    layer A dm xb wa ws b (ix3 β n o) = layerAt A dm xb wa ws b β n o := rfl

/-! ## The three words -/

/-- The word 0x42800000 denotes 64. -/
theorem word_64 : Ideal.ofBits .f32 0x42800000#32 = ((64 : ℝ) : EReal) := by
  simp [Ideal.ofBits, Ideal.ieee, -EReal.coe_mul]; norm_num

/-- The word 0x3C800000 denotes 2⁻⁶ = 1/64. -/
theorem word_inv64 : Ideal.ofBits .f32 0x3C800000#32 = ((1 / 64 : ℝ) : EReal) := by
  simp [Ideal.ofBits, Ideal.ieee, -EReal.coe_mul]; norm_num

/-! ## The law -/

/-- In ℝ: adding s + b to each of 64 terms and dividing the sum by 64 adds s + b to the mean. -/
theorem mean_real (P : Fin 64 → ℝ) (s b : ℝ) :
    (∑ a, ((P a + s) + b)) * (1 / 64) = ((∑ a, P a) * (1 / 64) + s) + b := by
  rw [Finset.sum_add_distrib, Finset.sum_add_distrib, Finset.sum_const, Finset.sum_const, Finset.card_univ,
    Fintype.card_fin]
  simp only [nsmul_eq_mul]
  push_cast
  ring

/-- On the extended reals, for real messages, a real own term and a real bias. -/
theorem mean_law (P : Fin 64 → EReal) (s b : EReal) (hP : ∀ a, ∃ r : ℝ, P a = (r : EReal))
    (hs : ∃ r : ℝ, s = (r : EReal)) (hb : ∃ r : ℝ, b = (r : EReal)) :
    Ideal.div (Ideal.ofBits .f32 0x00000000#32 + ∑ a, ((P a + s) + b)) (Ideal.ofBits .f32 0x42800000#32)
      = ((∑ a, P a) * Ideal.ofBits .f32 0x3C800000#32 + s) + b := by
  choose P' hP' using hP
  obtain ⟨s', rfl⟩ := hs
  obtain ⟨b', rfl⟩ := hb
  rw [Ideal.ofBits_zero_f32, zero_add, word_64, word_inv64, Ideal.div_coe (by norm_num : (64 : ℝ) ≠ 0)]
  simp only [hP', ← EReal.coe_add, ← Cert.Net.coe_sum, ← EReal.coe_mul]
  exact congrArg _ (mean_real P' s' b')

/-- A message is real when the anchor rows, the scores and the weights are. -/
theorem msg_real (A : TA.Idx → EReal) (dm : TD.Idx → EReal) (wa : TW.Idx → EReal)
    (hA : ∀ i, ∃ r : ℝ, A i = (r : EReal)) (hd : ∀ i, ∃ r : ℝ, dm i = (r : EReal)) (hw : ∀ i, ∃ r : ℝ, wa i = (r : EReal))
    (β : Fin 2) (n : Fin 10000) (o : Fin 64) (a : Fin 64) : ∃ r : ℝ, msg A dm wa β n o a = (r : EReal) :=
  Cert.Net.real_sum _ _ fun f => Cert.Net.real_mul (Cert.Net.real_mul (hA _) (hd _)) (hw _)

/-- The node's own term is real when the features and the weights are. -/
theorem own_real (xb : TX.Idx → EReal) (ws : TW.Idx → EReal)
    (hx : ∀ i, ∃ r : ℝ, xb i = (r : EReal)) (hw : ∀ i, ∃ r : ℝ, ws i = (r : EReal))
    (β : Fin 2) (n : Fin 10000) (o : Fin 64) : ∃ r : ℝ, own xb ws β n o = (r : EReal) :=
  Cert.Net.real_sum _ _ fun f => Cert.Net.real_mul (hx _) (hw _)

end Cert.AnchorMean

end
-- ==== Proof.RefLayer.lean ====
/-
  The reference is the layer. Read one operation at a time, the reference's result before its last transposition is, at
  (β, n, o), the sum over the 64 anchors a of ((msg(a) + own) + bias(o)), started from zero and divided by 64: the
  second arrangement of the layer. With real entries this is the layer itself (the mean law). The anchor rows are
  entries of the feature table (a gather reads its operand at a computed index), so they are real when the features
  are; the two halves of the weight table are entries of the weight table.
-/
import proofs.«124689_j8924942041314_1_alg».proof.Proof.Gen.ReferenceIdeal.Read
import proofs.«124689_j8924942041314_1_alg».proof.Proof.Spec

noncomputable section

open scoped BigOperators

namespace Cert.AnchorMean.Ref

open Cert.ReferenceIdeal Cert.ReferenceIdeal.Gen Cert.ReferenceIdeal.Read Idealize.ShloMosaic Idealize.ShloMosaic.ValueIdx
open Cert.AnchorMean

/-! ## The composed index maps, at coordinates -/

theorem e21 (β : Fin 2) (n : Fin 10000) (o a : Fin 64) : idx_main_v21 (ix3 β n o) a = ix4 β n a o :=
  funext fun d => Fin.ext (by match d with | ⟨0, _⟩ => rfl | ⟨1, _⟩ => rfl | ⟨2, _⟩ => rfl | ⟨3, _⟩ => rfl)
theorem e14l (β : Fin 2) (n : Fin 10000) (a o f : Fin 64) : lidx_main_v14 (ix4 β n a o) f = ix4 β n a f :=
  funext fun d => Fin.ext (by match d with | ⟨0, _⟩ => rfl | ⟨1, _⟩ => rfl | ⟨2, _⟩ => rfl | ⟨3, _⟩ => rfl)
theorem e14r (β : Fin 2) (n : Fin 10000) (a o f : Fin 64) : ridx_main_v14 (ix4 β n a o) f = ix2 o f :=
  funext fun d => Fin.ext (by match d with | ⟨0, _⟩ => rfl | ⟨1, _⟩ => rfl)
theorem e9 (β : Fin 2) (n : Fin 10000) (a f : Fin 64) : idx_main_v8 (idx_main_v9 (ix4 β n a f)) = ix2 n a :=
  funext fun d => Fin.ext (by match d with | ⟨0, _⟩ => rfl | ⟨1, _⟩ => rfl)
theorem e16 (β : Fin 2) (n : Fin 10000) (a o : Fin 64) : idx_main_v15 (idx_main_v16 (ix4 β n a o)) = ix3 β n o :=
  funext fun d => Fin.ext (by match d with | ⟨0, _⟩ => rfl | ⟨1, _⟩ => rfl | ⟨2, _⟩ => rfl)
theorem e13l (β : Fin 2) (n : Fin 10000) (o f : Fin 64) : lidx_main_v13 (ix3 β n o) f = ix3 β n f :=
  funext fun d => Fin.ext (by match d with | ⟨0, _⟩ => rfl | ⟨1, _⟩ => rfl | ⟨2, _⟩ => rfl)
theorem e13r (β : Fin 2) (n : Fin 10000) (o f : Fin 64) : ridx_main_v13 (ix3 β n o) f = ix2 o f :=
  funext fun d => Fin.ext (by match d with | ⟨0, _⟩ => rfl | ⟨1, _⟩ => rfl)
theorem e19 (β : Fin 2) (n : Fin 10000) (a o : Fin 64) : idx_main_v18 (idx_main_v19 (ix4 β n a o)) = ix1 o :=
  funext fun d => Fin.ext (by match d with | ⟨0, _⟩ => rfl)

/-! ## One summand -/

/-- Before the sum over the anchors: at (β, n, a, o) the a-th message, plus the node's own term, plus the bias. -/
theorem summand (x0 : FVec Ideal S10000x2x64 .f32) (x1 : FVec Ideal S10000x64 .f32) (x2 : IVec S10000x64 32)
    (x3 : FVec Ideal S64x128 .f32) (x4 : FVec Ideal S64 .f32) (β : Fin 2) (n : Fin 10000) (o a : Fin 64) :
    val_main_v20 (F := Ideal) x0 x1 x2 x3 x4 (ix4 β n a o)
      = (msg (val_main_v7 (F := Ideal) x0 x2) x1 (val_main_v11 (F := Ideal) x3) β n o a
          + own (val_main_v0 (F := Ideal) x0) (val_main_v12 (F := Ideal) x3) β n o) + x4 (ix1 o) := by
  rw [val_main_v20_apply, val_main_v17_apply, val_main_v14_apply, val_main_v16_apply, val_main_v15_apply,
    val_main_v13_apply, val_main_v19_apply, val_main_v18_apply]
  simp only [val_main_v10_apply, val_main_v9_apply, val_main_v8_apply, e14l, e14r, e9, e16, e13l, e13r, e19,
    Ideal.addf_def, Ideal.mulf_def]
  rfl

/-! ## Real entries -/

theorem anchors_real (x0 : FVec Ideal S10000x2x64 .f32) (x2 : IVec S10000x64 32) (h0 : ∀ i, ∃ r : ℝ, x0 i = (r : EReal))
    (i : S2x10000x64x64.Idx) : ∃ r : ℝ, val_main_v7 (F := Ideal) x0 x2 i = (r : EReal) := by
  show ∃ r : ℝ, val_main_v0 (F := Ideal) x0 _ = (r : EReal)
  rw [val_main_v0_apply]
  exact h0 _

theorem feats_real (x0 : FVec Ideal S10000x2x64 .f32) (h0 : ∀ i, ∃ r : ℝ, x0 i = (r : EReal)) (i : S2x10000x64.Idx) :
    ∃ r : ℝ, val_main_v0 (F := Ideal) x0 i = (r : EReal) := by
  rw [val_main_v0_apply]; exact h0 _

theorem wa_real (x3 : FVec Ideal S64x128 .f32) (h3 : ∀ i, ∃ r : ℝ, x3 i = (r : EReal)) (i : S64x64.Idx) :
    ∃ r : ℝ, val_main_v11 (F := Ideal) x3 i = (r : EReal) := by
  rw [val_main_v11_apply]; exact h3 _

theorem ws_real (x3 : FVec Ideal S64x128 .f32) (h3 : ∀ i, ∃ r : ℝ, x3 i = (r : EReal)) (i : S64x64.Idx) :
    ∃ r : ℝ, val_main_v12 (F := Ideal) x3 i = (r : EReal) := by
  rw [val_main_v12_apply]; exact h3 _

/-! ## The reference before its last transposition -/

/-- With real arguments the reference's mean over the anchors is the layer of the gathered rows, the scores, the
    features batch first, the two halves of the weight table and the bias. -/
theorem mean_eq_layer (x0 : FVec Ideal S10000x2x64 .f32) (x1 : FVec Ideal S10000x64 .f32) (x2 : IVec S10000x64 32)
    (x3 : FVec Ideal S64x128 .f32) (x4 : FVec Ideal S64 .f32)
    (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) :
    val_main_v23 (F := Ideal) x0 x1 x2 x3 x4
      = layer (val_main_v7 (F := Ideal) x0 x2) x1 (val_main_v0 (F := Ideal) x0) (val_main_v11 (F := Ideal) x3)
          (val_main_v12 (F := Ideal) x3) x4 := by
  funext j
  obtain ⟨β, n, o, rfl⟩ : ∃ (β : Fin 2) (n : Fin 10000) (o : Fin 64), j = ix3 β n o := ⟨j 0, j 1, j 2, eq_ix3 j⟩
  rw [layer_apply, val_main_v23_apply, val_main_v21_apply, val_main_v22_apply, val_main_cst_1_apply, val_main_cst_apply]
  simp only [e21, summand, Ideal.hostDivf_def, Ideal.ofBits_def]
  exact mean_law _ _ _ (fun a => msg_real _ _ _ (anchors_real x0 x2 h0) h1 (wa_real x3 h3) β n o a)
    (own_real _ _ (feats_real x0 h0) (ws_real x3 h3) β n o) (h4 _)

end Cert.AnchorMean.Ref

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.LibLastAxis.lean ====
/-
  Reductions along the LAST axis of a rank-3 array, and the keepdims forms around them, read at an index — generic in
  the three extents.

  For an [A, B, C] array x:
  * a lane reduction by maximum from the word of −∞ is, at (a, b), the fold of max over the C entries x(a, b, ·)
    (`multiReduction_max_last`), and a lane reduction by addition from the zero word is their sum
    (`multiReduction_add_last`);
  * the host's one-operand reduce along axis 2 with a commutative associative body is, at (a, b), the fold of the body
    from the initial value over those entries (`hostReduce_last`);
  * an [A, B] array cast to [A, B, 1] reads at (a, b, u) the operand at (a, b) (`shapeCast_ab_ab1_apply`);
  * an [A, B, 1] array broadcast to [A, B, D] reads at (a, b, d) the operand at (a, b, 0) (`broadcastTo_ab1_abd_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.LastAxis

open Idealize.ShloMosaic Idealize.ShloMosaic.ValueIdx

variable {A B C : Nat}

/-- The index over (a, b) with c inserted on the last axis is (a, b, c). -/
theorem lift_last (h : (⟨3, ![A, B, C]⟩ : Shape).Reduces [2] ⟨2, ![A, B]⟩) (a : Fin A) (b : Fin B) (c : Fin C) :
    h.lift (ix2 a b) c = ix3 a b c :=
  funext fun ax => Fin.ext (by match ax with | ⟨0, _⟩ => rfl | ⟨1, _⟩ => rfl | ⟨2, _⟩ => rfl)

/-- A lane reduction by maximum along the last axis, from the word of −∞: at (a, b) the fold of max over the entries
    x(a, b, ·), started from what that word denotes. -/
theorem multiReduction_max_last (x : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ x 0xFF800000#32 h hφ hacc (ix2 a b)
      = (Finset.univ : Finset (Fin C)).fold max (Ideal.ofBits .f32 0xFF800000#32) (fun c => x (ix3 a b c)) := by
  refine (Ideal.multiReduction_maximumf_single x 0xFF800000#32 h hφ hacc (ix2 a b)).trans ?_
  refine congrArg (fun g => (Finset.univ : Finset (Fin C)).fold max (Ideal.ofBits .f32 0xFF800000#32) g) (funext fun c => ?_)
  exact congrArg x (lift_last h a b c)

/-- A lane reduction by addition along the last axis, from the zero word: at (a, b) the sum of the entries x(a, b, ·). -/
theorem multiReduction_add_last (x : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction .add [2] ⟨2, ![A, B]⟩ x 0x00000000#32 h hφ hacc (ix2 a b) = ∑ c : Fin C, x (ix3 a b c) := by
  refine (Ideal.multiReduction_add_single x 0x00000000#32 h hφ hacc (ix2 a b)).trans ?_
  exact Finset.sum_congr rfl fun c _ => congrArg x (lift_last h a b c)

/-- The host's one-operand reduce along the last axis with a commutative associative body: at (a, b) the fold of the body
    from the initial value over the entries x(a, b, ·). -/
theorem hostReduce_last (f : EReal → EReal → EReal) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → EReal) (init : (⟨0, ![]⟩ : Shape).Idx → EReal)
    (hu : 0 < (⟨0, ![]⟩ : Shape).numel) (a : Fin A) (b : Fin B) :
    Host.reduce f x init h' hu (ix2 a b)
      = (Finset.univ : Finset (Fin C)).fold f (init (Shape.Idx.first hu)) (fun c => x (ix3 a b c)) := by
  rw [Host.reduce_eq_fold_single f x init h' h hu (ix2 a b)]
  refine congrArg (fun g => (Finset.univ : Finset (Fin C)).fold f (init (Shape.Idx.first hu)) g) (funext fun c => ?_)
  exact congrArg x (lift_last h a b c)

variable {α : Type}

/-- An [A, B] array cast to [A, B, 1] reads, at (a, b, u), the operand at (a, b): the two indices have one row-major
    position. -/
theorem shapeCast_ab_ab1_apply (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    omega)

/-- An [A, B, 1] array broadcast to [A, B, D] reads, at (a, b, d), the operand at (a, b, 0). -/
theorem broadcastTo_ab1_abd_apply {D : Nat} (v : (⟨3, ![A, B, 1]⟩ : Shape).Idx → α)
    (h : (⟨3, ![A, B, 1]⟩ : Shape).Broadcasts ⟨3, ![A, B, D]⟩) (a : Fin A) (b : Fin B) (d : Fin D) :
    broadcastTo ⟨3, ![A, B, D]⟩ v h (ix3 a b d) = v (ix3 a b (0 : Fin 1)) := by
  refine broadcastTo_apply v h (ix3 a b d) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.Lib.LastAxis

end
-- ==== Proof.Body.lean ====
/-
  What one grid step computes. The step's block of the result, [1, 200, 64], is at (0, r, o)
      ((Σ_a Σ_f (A(0,r,a,f) · d(r,a)) · wa(o,f)) · 2⁻⁶ + Σ_f x(0,r,f) · ws(o,f)) + bias(0,o)
  of the step's blocks A [1,200,64,64] of anchor rows, d [200,64] of scores, x [1,200,64] of features, and the whole
  wa, ws [64,64] and bias [1,64]. The 200·64 scaled anchor rows are laid out as the rows of one [12800, 64] matrix, row
  (r, a) at position 64·r + a; one product with waᵀ gives all the messages; they are regrouped as [200, 64, 64] and
  summed over the anchor axis. On the extended reals the changes of format are the identity and a product into a zero
  accumulator is the plain sum of products.
-/
import proofs.«124689_j8924942041314_1_alg».proof.Proof.Gen.KernelIdeal.Skeleton
import proofs.«124689_j8924942041314_1_alg».proof.Proof.LibContract
import proofs.«124689_j8924942041314_1_alg».proof.Proof.LibLastAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AnchorMean.Body

open Cert.KernelIdeal Cert.KernelIdeal.Gen Idealize.ShloMosaic Idealize.ShloMosaic.ValueIdx

/-- The two products' dimension numbers: the last axis of each operand is contracted. -/
abbrev dotMsg := dot_S12800x64_S64x64_S12800x64_1_1_0_0_n_n
abbrev dotOwn := dot_S200x64_S64x64_S200x64_1_1_0_0_n_n

/-! ## The operand indices of the two products, coordinate by coordinate -/

theorem lhsMsg_0 (i : S12800x64.Idx) (q : dotMsg.contr.Idx) : (dotMsg.lhsIdx i q 0).val = (i 0).val := by
  unfold DotDims.lhsIdx
  rw [dif_neg (show ¬(0 : Fin S12800x64.rank) ∈ dotMsg.lhsBatch by decide),
    dif_pos (show (0 : Fin S12800x64.rank) ∈ dotMsg.lhsNonContracting by decide)]
  rfl
theorem lhsMsg_1 (i : S12800x64.Idx) (q : dotMsg.contr.Idx) : (dotMsg.lhsIdx i q 1).val = (q ⟨0, by decide⟩).val :=
  dotMsg.lhsIdx_val_of_single rfl i q
theorem rhsMsg_0 (i : S12800x64.Idx) (q : dotMsg.contr.Idx) : (dotMsg.rhsIdx i q 0).val = (i 1).val := by
  unfold DotDims.rhsIdx
  rw [dif_neg (show ¬(0 : Fin S64x64.rank) ∈ dotMsg.rhsBatch by decide),
    dif_pos (show (0 : Fin S64x64.rank) ∈ dotMsg.rhsNonContracting by decide)]
  rfl
theorem rhsMsg_1 (i : S12800x64.Idx) (q : dotMsg.contr.Idx) : (dotMsg.rhsIdx i q 1).val = (q ⟨0, by decide⟩).val :=
  dotMsg.rhsIdx_val_of_single rfl i q

theorem lhsOwn_0 (i : S200x64.Idx) (q : dotOwn.contr.Idx) : (dotOwn.lhsIdx i q 0).val = (i 0).val := by
  unfold DotDims.lhsIdx
  rw [dif_neg (show ¬(0 : Fin S200x64.rank) ∈ dotOwn.lhsBatch by decide),
    dif_pos (show (0 : Fin S200x64.rank) ∈ dotOwn.lhsNonContracting by decide)]
  rfl
theorem lhsOwn_1 (i : S200x64.Idx) (q : dotOwn.contr.Idx) : (dotOwn.lhsIdx i q 1).val = (q ⟨0, by decide⟩).val :=
  dotOwn.lhsIdx_val_of_single rfl i q
theorem rhsOwn_0 (i : S200x64.Idx) (q : dotOwn.contr.Idx) : (dotOwn.rhsIdx i q 0).val = (i 1).val := by
  unfold DotDims.rhsIdx
  rw [dif_neg (show ¬(0 : Fin S64x64.rank) ∈ dotOwn.rhsBatch by decide),
    dif_pos (show (0 : Fin S64x64.rank) ∈ dotOwn.rhsNonContracting by decide)]
  rfl
theorem rhsOwn_1 (i : S200x64.Idx) (q : dotOwn.contr.Idx) : (dotOwn.rhsIdx i q 1).val = (q ⟨0, by decide⟩).val :=
  dotOwn.rhsIdx_val_of_single rfl i q

/-! ## The two products at an output index -/

/-- Row ρ of l against row o of w. -/
theorem prodMsg (l : FVec Ideal S12800x64 .bf16) (w : FVec Ideal S64x64 .bf16) (ρ : Fin 12800) (o : Fin 64) :
    matmul dotMsg none l w (constant (F := Ideal) S12800x64 .f32 0x00000000#32) (ix2 ρ o)
      = ∑ f : Fin 64, l (ix2 ρ f) * w (ix2 o f) :=
  Cert.Lib.Contract.matmul_zero_single dotMsg none 64 rfl rfl l w (ix2 ρ o) (fun k => ix2 ρ k) (fun k => ix2 o k)
    (fun k q hq => funext fun a => Fin.ext (by
      match a with
      | ⟨0, _⟩ => exact lhsMsg_0 _ _
      | ⟨1, _⟩ => exact (lhsMsg_1 _ _).trans hq))
    (fun k q hq => funext fun a => Fin.ext (by
      match a with
      | ⟨0, _⟩ => exact rhsMsg_0 _ _
      | ⟨1, _⟩ => exact (rhsMsg_1 _ _).trans hq))

/-- Row r of l against row o of w. -/
theorem prodOwn (l : FVec Ideal S200x64 .bf16) (w : FVec Ideal S64x64 .bf16) (r : Fin 200) (o : Fin 64) :
    matmul dotOwn none l w (constant (F := Ideal) S200x64 .f32 0x00000000#32) (ix2 r o)
      = ∑ f : Fin 64, l (ix2 r f) * w (ix2 o f) :=
  Cert.Lib.Contract.matmul_zero_single dotOwn none 64 rfl rfl l w (ix2 r o) (fun k => ix2 r k) (fun k => ix2 o k)
    (fun k q hq => funext fun a => Fin.ext (by
      match a with
      | ⟨0, _⟩ => exact lhsOwn_0 _ _
      | ⟨1, _⟩ => exact (lhsOwn_1 _ _).trans hq))
    (fun k q hq => funext fun a => Fin.ext (by
      match a with
      | ⟨0, _⟩ => exact rhsOwn_0 _ _
      | ⟨1, _⟩ => exact (rhsOwn_1 _ _).trans hq))

/-! ## The layout steps -/

/-- The position of row (r, a) among the 12800 rows. -/
abbrev rowOf (r : Fin 200) (a : Fin 64) : Fin 12800 :=
  ⟨r.val * 64 + a.val, by have := r.isLt; have := a.isLt; omega⟩

/-- The scaled anchor rows as a matrix: row (r, a), column f holds A(0,r,a,f) · d(r,a). -/
theorem scaled_at (v0 : FVec Ideal S1x200x64x64 .f32) (v2 : FVec Ideal S200x64 .f32)
    (h1 : S1x200x64x64.ShapeCasts S200x64x64) (h2 : S200x64.ShapeCasts S200x64x1) (h3 : S200x64x1.Broadcasts S200x64x64)
    (hb : FTy.bits .bf16 < FTy.bits .f32) (h4 : S200x64x64.ShapeCasts S12800x64) (r : Fin 200) (a f : Fin 64) :
    shapeCast S12800x64 (truncf .bf16 (mulf (shapeCast S200x64x64 v0 h1)
        (broadcastTo S200x64x64 (shapeCast S200x64x1 v2 h2) h3)) hb) h4 (ix2 (rowOf r a) f)
      = v0 (ix4 (0 : Fin 1) r a f) * v2 (ix2 r a) := by
  refine (shapeCast_apply _ h4 _ (ix3 r a f) ?_).trans ?_
  · rw [Shape.rowMajor_val_three, Shape.rowMajor_val_two]
    rfl
  · show shapeCast S200x64x64 v0 h1 (ix3 r a f) * broadcastTo S200x64x64 (shapeCast S200x64x1 v2 h2) h3 (ix3 r a f) = _
    rw [shapeCast_1abc_abc_apply, Cert.Lib.LastAxis.broadcastTo_ab1_abd_apply, Cert.Lib.LastAxis.shapeCast_ab_ab1_apply]

/-- A weight half, rounded for the product: unchanged. -/
theorem weight_at (v8 : FVec Ideal S64x64 .f32) (h : S64x64.ShapeCasts S64x64) (hb : FTy.bits .bf16 < FTy.bits .f32)
    (o f : Fin 64) : truncf .bf16 (shapeCast S64x64 v8 h) hb (ix2 o f) = v8 (ix2 o f) := by
  show shapeCast S64x64 v8 h (ix2 o f) = _
  rw [shapeCast_self]

/-- The messages regrouped by node and summed over the anchors. -/
theorem anchor_sum (y : FVec Ideal S12800x64 .f32) (h5 : S12800x64.ShapeCasts S200x64x64)
    (hred : S200x64x64.Reduces [1] S200x64) (hφ : FKind.Formats .f32)
    (hacc : (0x00000000#32 : BitVec 32) = FKind.add.neutral .f32 hφ) (r : Fin 200) (o : Fin 64) :
    multiReduction .add [1] S200x64 (shapeCast S200x64x64 y h5) 0x00000000#32 hred hφ hacc (ix2 r o)
      = ∑ a : Fin 64, y (ix2 (rowOf r a) o) := by
  refine (Ideal.multiReduction_add_single _ 0x00000000#32 hred hφ hacc (ix2 r o)).trans ?_
  show (∑ a : Fin 64, shapeCast S200x64x64 y h5 (hred.lift (ix2 r o) a)) = _
  refine Finset.sum_congr rfl fun a _ => ?_
  have e : hred.lift (ix2 r o) a = ix3 r a o :=
    funext fun ax => Fin.ext (by match ax with | ⟨0, _⟩ => rfl | ⟨1, _⟩ => rfl | ⟨2, _⟩ => rfl)
  rw [e]
  refine shapeCast_apply y h5 _ _ ?_
  rw [Shape.rowMajor_val_three, Shape.rowMajor_val_two]
  rfl

/-- The features' block, one leading unit axis dropped and rounded for the product. -/
theorem feat_at (v16 : FVec Ideal S1x200x64 .f32) (h : S1x200x64.ShapeCasts S200x64) (hb : FTy.bits .bf16 < FTy.bits .f32)
    (r : Fin 200) (f : Fin 64) : truncf .bf16 (shapeCast S200x64 v16 h) hb (ix2 r f) = v16 (ix3 (0 : Fin 1) r f) := by
  show shapeCast S200x64 v16 h (ix2 r f) = _
  rw [shapeCast_1ab_ab_apply]

/-- The bias row over the 200 nodes. -/
theorem bias_at (v23 : FVec Ideal S1x64 .f32) (h : S1x64.ShapeCasts S1x64) (h' : S1x64.Broadcasts S200x64)
    (r : Fin 200) (o : Fin 64) : broadcastTo S200x64 (shapeCast S1x64 v23 h) h' (ix2 r o) = v23 (ix2 (0 : Fin 1) o) := by
  rw [shapeCast_self, broadcastTo_1b_ab_apply]

/-! ## The step's block -/

theorem payload_at (v0 : FVec Ideal S1x200x64x64 .f32) (v2 : FVec Ideal S200x64 .f32) (v8 : FVec Ideal S64x64 .f32)
    (v16 : FVec Ideal S1x200x64 .f32) (v19 : FVec Ideal S64x64 .f32) (v23 : FVec Ideal S1x64 .f32)
    (r : Fin 200) (o : Fin 64) :
    k0_pay1 (F := Ideal) v0 v2 v8 v16 v19 v23 (ix3 (0 : Fin 1) r o)
      = ((∑ a : Fin 64, ∑ f : Fin 64, (v0 (ix4 (0 : Fin 1) r a f) * v2 (ix2 r a)) * v8 (ix2 o f))
            * Ideal.ofBits .f32 0x3C800000#32
          + ∑ f : Fin 64, v16 (ix3 (0 : Fin 1) r f) * v19 (ix2 o f)) + v23 (ix2 (0 : Fin 1) o) := by
  unfold k0_pay1
  dsimp only
  refine (shapeCast_ab_1ab_apply _ _ (0 : Fin 1) r o).trans ?_
  rw [addf_apply, addf_apply, mulf_apply, broadcast_apply]
  refine congrArg₂ (· + ·) (congrArg₂ (· + ·) (congrArg₂ (· * ·) ?_ rfl) ?_) ?_
  · refine (anchor_sum _ _ _ _ _ r o).trans (Finset.sum_congr rfl fun a _ => ?_)
    refine (prodMsg _ _ (rowOf r a) o).trans (Finset.sum_congr rfl fun f _ => ?_)
    exact congrArg₂ (· * ·) (scaled_at v0 v2 _ _ _ _ _ r a f) (weight_at v8 _ _ o f)
  · refine (prodOwn _ _ r o).trans (Finset.sum_congr rfl fun f _ => ?_)
    exact congrArg₂ (· * ·) (feat_at v16 _ _ r f) (weight_at v19 _ _ o f)
  · exact bias_at v23 _ _ r o

end Cert.AnchorMean.Body

end
-- ==== Proof.Blocks.lean ====
/-
  From the grid steps to the whole array. Step t = (β, k) of the 2 × 50 grid reads block (β, k) of the anchor rows
  (200 nodes, all 64 anchors, all 64 features), block k of the scores, block (β, k) of the features, and the whole of
  the two weight halves and the bias row, and writes block (β, k) of the result: rows 200·k … 200·k + 199 of batch β.
  Entry (0, r, o) of what it writes is the layer at (β, 200·k + r, o) of the arrays the region finds, so each step
  writes its block of ONE function of those arrays; the 100 blocks tile the [2, 10000, 64] result, so after the last
  step the result array is that function.
-/
import proofs.«124689_j8924942041314_1_alg».proof.Proof.Gen.KernelIdeal.Frame
import proofs.«124689_j8924942041314_1_alg».proof.Proof.Body
import proofs.«124689_j8924942041314_1_alg».proof.Proof.Spec
import Idealize.ShloMosaic.Lib.Pipeline.Value

noncomputable section

open scoped BigOperators

namespace Cert.AnchorMean.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.AnchorMean

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The layer of the arrays the region finds: the gathered anchor rows, the scores, the features batch first, the two
    weight halves, and the bias read off its one row. -/
def regionLayer (c : Dev nD) : S2x10000x64.Idx → EReal :=
  layer (V m c main_v7 : S2x10000x64x64.Idx → EReal) (V m c main_arg1 : S10000x64.Idx → EReal)
    (V m c main_v0 : S2x10000x64.Idx → EReal) (V m c main_v8 : S64x64.Idx → EReal) (V m c main_v9 : S64x64.Idx → EReal)
    (fun i => (V m c main_v10 : S1x64.Idx → EReal) (ix2 (0 : Fin 1) (i 0)))

/-- The printed index maps over the grid: the anchor rows' and the features' blocks move with the result's block on
    the batch and node axes, the scores' block with its node axis; the weights and the bias stay; the result's block
    index is (β, k, 0) with β < 2 and k < 50. -/
theorem idx_facts : ∀ t : Fin cfg0.N,
    win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0
    ∧ win0_1.index t (0 : Fin 2) = win0_6.index t (1 : Fin 3) ∧ win0_1.index t (1 : Fin 2) = 0
    ∧ win0_2.index t (0 : Fin 3) = win0_6.index t (0 : Fin 3) ∧ win0_2.index t (1 : Fin 3) = win0_6.index t (1 : Fin 3)
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 3) = 0 ∧ win0_6.index t (0 : Fin 3) < 2 ∧ win0_6.index t (1 : Fin 3) < 50 :=
  (by decide +kernel : ∀ t : Fin grid0.N, _)

/-- Every block index (β, k, 0) is some step's. -/
theorem idx_onto : ∀ (q0 : Fin 2) (q1 : Fin 50), ∃ t : Fin cfg0.N, win0_6.index t = ![q0.val, q1.val, 0] :=
  (by decide +kernel : ∀ (q0 : Fin 2) (q1 : Fin 50), ∃ t : Fin grid0.N, win0_6.index t = ![q0.val, q1.val, 0])

/-! ## The input blocks, entry by entry -/

section
variable (c : Dev nD) (t : Fin cfg0.N) (β : Fin 2) (n : Fin 10000) (r : Fin 200)
  (hβ : β.val = win0_6.index t (0 : Fin 3)) (hn : n.val = win0_6.index t (1 : Fin 3) * 200 + r.val)
include hβ hn

theorem anchors_blk (a f : Fin 64) :
    (iblk m c 0 t : FVec Ideal S1x200x64x64 .f32) (ix4 (0 : Fin 1) r a f)
      = (V m c main_v7 : S2x10000x64x64.Idx → EReal) (ix4 β n a f) := by
  obtain ⟨e0, e1, e2, e3, -⟩ := idx_facts t
  show V m c main_v7 (((cfg0.win 0).blk t).view.emb (ix4 (0 : Fin 1) r a f)) = V m c main_v7 (ix4 β n a f)
  refine congrArg _ (funext fun ax => Fin.ext ?_)
  match ax with
  | ⟨0, _⟩ => show win0_0.index t (0 : Fin 4) * 1 + 1 * 0 = β.val; omega
  | ⟨1, _⟩ => show win0_0.index t (1 : Fin 4) * 200 + 1 * r.val = n.val; omega
  | ⟨2, _⟩ => show win0_0.index t (2 : Fin 4) * 64 + 1 * a.val = a.val; omega
  | ⟨3, _⟩ => show win0_0.index t (3 : Fin 4) * 64 + 1 * f.val = f.val; omega

theorem scores_blk (a : Fin 64) :
    (iblk m c 1 t : FVec Ideal S200x64 .f32) (ix2 r a) = (V m c main_arg1 : S10000x64.Idx → EReal) (ix2 n a) := by
  obtain ⟨-, -, -, -, e0, e1, -⟩ := idx_facts t
  show V m c main_arg1 (((cfg0.win 1).blk t).view.emb (ix2 r a)) = V m c main_arg1 (ix2 n a)
  refine congrArg _ (funext fun ax => Fin.ext ?_)
  match ax with
  | ⟨0, _⟩ => show win0_1.index t (0 : Fin 2) * 200 + 1 * r.val = n.val; omega
  | ⟨1, _⟩ => show win0_1.index t (1 : Fin 2) * 64 + 1 * a.val = a.val; omega

theorem feats_blk (f : Fin 64) :
    (iblk m c 2 t : FVec Ideal S1x200x64 .f32) (ix3 (0 : Fin 1) r f)
      = (V m c main_v0 : S2x10000x64.Idx → EReal) (ix3 β n f) := by
  obtain ⟨-, -, -, -, -, -, e0, e1, e2, -⟩ := idx_facts t
  show V m c main_v0 (((cfg0.win 2).blk t).view.emb (ix3 (0 : Fin 1) r f)) = V m c main_v0 (ix3 β n f)
  refine congrArg _ (funext fun ax => Fin.ext ?_)
  match ax with
  | ⟨0, _⟩ => show win0_2.index t (0 : Fin 3) * 1 + 1 * 0 = β.val; omega
  | ⟨1, _⟩ => show win0_2.index t (1 : Fin 3) * 200 + 1 * r.val = n.val; omega
  | ⟨2, _⟩ => show win0_2.index t (2 : Fin 3) * 64 + 1 * f.val = f.val; omega

end

theorem wa_blk (c : Dev nD) (t : Fin cfg0.N) (o f : Fin 64) :
    (iblk m c 3 t : FVec Ideal S64x64 .f32) (ix2 o f) = (V m c main_v8 : S64x64.Idx → EReal) (ix2 o f) := by
  obtain ⟨-, -, -, -, -, -, -, -, -, e0, e1, -⟩ := idx_facts t
  show V m c main_v8 (((cfg0.win 3).blk t).view.emb (ix2 o f)) = V m c main_v8 (ix2 o f)
  refine congrArg _ (funext fun ax => Fin.ext ?_)
  match ax with
  | ⟨0, _⟩ => show win0_3.index t (0 : Fin 2) * 64 + 1 * o.val = o.val; omega
  | ⟨1, _⟩ => show win0_3.index t (1 : Fin 2) * 64 + 1 * f.val = f.val; omega

theorem ws_blk (c : Dev nD) (t : Fin cfg0.N) (o f : Fin 64) :
    (iblk m c 4 t : FVec Ideal S64x64 .f32) (ix2 o f) = (V m c main_v9 : S64x64.Idx → EReal) (ix2 o f) := by
  obtain ⟨-, -, -, -, -, -, -, -, -, -, -, e0, e1, -⟩ := idx_facts t
  show V m c main_v9 (((cfg0.win 4).blk t).view.emb (ix2 o f)) = V m c main_v9 (ix2 o f)
  refine congrArg _ (funext fun ax => Fin.ext ?_)
  match ax with
  | ⟨0, _⟩ => show win0_4.index t (0 : Fin 2) * 64 + 1 * o.val = o.val; omega
  | ⟨1, _⟩ => show win0_4.index t (1 : Fin 2) * 64 + 1 * f.val = f.val; omega

theorem bias_blk (c : Dev nD) (t : Fin cfg0.N) (o : Fin 64) :
    (iblk m c 5 t : FVec Ideal S1x64 .f32) (ix2 (0 : Fin 1) o) = (V m c main_v10 : S1x64.Idx → EReal) (ix2 (0 : Fin 1) o) := by
  obtain ⟨-, -, -, -, -, -, -, -, -, -, -, -, -, e0, e1, -⟩ := idx_facts t
  show V m c main_v10 (((cfg0.win 5).blk t).view.emb (ix2 (0 : Fin 1) o)) = V m c main_v10 (ix2 (0 : Fin 1) o)
  refine congrArg _ (funext fun ax => Fin.ext ?_)
  match ax with
  | ⟨0, _⟩ => show win0_5.index t (0 : Fin 2) * 1 + 1 * 0 = 0; omega
  | ⟨1, _⟩ => show win0_5.index t (1 : Fin 2) * 64 + 1 * o.val = o.val; omega

/-! ## What a step writes back -/

/-- Step t writes block t of the layer of the arrays the region finds. -/
theorem flushed_eq (c : Dev nD) (t : Fin cfg0.N) :
    (dats m 0 c).flushed 6 t = ((cfg0.win 6).blk t).view.read (Elt Ideal) (regionLayer m c) := by
  show (cfg0.win 6).cut (grid0.coords t) ((dats m 0 c).after 6 t) = _
  rw [after0_6]
  unfold out0_6
  rw [View.canon_unit_zero hz3]
  simp only [View.ld_unit_zero (S := S1x200x64x64) hz4, View.ld_unit_zero (S := S200x64) hz2,
    View.ld_unit_zero (S := S64x64) hz2, View.ld_unit_zero (S := S1x200x64) hz3, View.ld_unit_zero (S := S1x64) hz2]
  obtain ⟨-, -, -, -, -, -, -, -, -, -, -, -, -, -, -, e2, hβ, hk⟩ := idx_facts t
  funext j
  obtain ⟨u, r, o, rfl⟩ : ∃ (u : Fin 1) (r : Fin 200) (o : Fin 64), j = ix3 u r o := ⟨j 0, j 1, j 2, eq_ix3 j⟩
  obtain rfl : u = 0 := Subsingleton.elim _ _
  have hr : r.val < 200 := r.isLt
  obtain ⟨β, hβ'⟩ : ∃ β : Fin 2, β.val = win0_6.index t (0 : Fin 3) := ⟨⟨_, hβ⟩, rfl⟩
  obtain ⟨n, hn'⟩ : ∃ n : Fin 10000, n.val = win0_6.index t (1 : Fin 3) * 200 + r.val := ⟨⟨_, by omega⟩, rfl⟩
  have hemb : ((cfg0.win 6).blk t).view.emb (ix3 (0 : Fin 1) r o) = ix3 β n o := by
    refine funext fun ax => Fin.ext ?_
    match ax with
    | ⟨0, _⟩ => show win0_6.index t (0 : Fin 3) * 1 + 1 * 0 = β.val; omega
    | ⟨1, _⟩ => show win0_6.index t (1 : Fin 3) * 200 + 1 * r.val = n.val; omega
    | ⟨2, _⟩ => show win0_6.index t (2 : Fin 3) * 64 + 1 * o.val = o.val; omega
  show k0_pay1 (iblk m c 0 t) (iblk m c 1 t) (iblk m c 3 t) (iblk m c 2 t) (iblk m c 4 t) (iblk m c 5 t) (ix3 (0 : Fin 1) r o)
    = regionLayer m c (((cfg0.win 6).blk t).view.emb (ix3 (0 : Fin 1) r o))
  rw [hemb]
  refine (Body.payload_at (iblk m c 0 t) (iblk m c 1 t) (iblk m c 3 t) (iblk m c 2 t) (iblk m c 4 t) (iblk m c 5 t) r o).trans ?_
  exact congrArg₂ (· + ·)
    (congrArg₂ (· + ·)
      (congrArg₂ (· * ·)
        (Finset.sum_congr rfl fun a _ => Finset.sum_congr rfl fun f _ =>
          congrArg₂ (· * ·) (congrArg₂ (· * ·) (anchors_blk m c t β n r hβ' hn' a f) (scores_blk m c t β n r hβ' hn' a))
            (wa_blk m c t o f))
        rfl)
      (Finset.sum_congr rfl fun f _ => congrArg₂ (· * ·) (feats_blk m c t β n r hβ' hn' f) (ws_blk m c t o f)))
    (bias_blk m c t o)

/-! ## The blocks tile the result -/

/-- An index of the result is in step t's block iff each coordinate is in the block's range on its axis. -/
theorem mem_blk (t : Fin cfg0.N) (i : S2x10000x64.Idx) :
    i ∈ ((cfg0.win 6).blk t).view.set ↔ ∀ a : Fin 3, win0_6.index t a * S1x200x64.size a ≤ (i a).val
      ∧ (i a).val < win0_6.index t a * S1x200x64.size a + S1x200x64.size a := by
  show i ∈ ((View.whole main_v11).slice (win0_6.rect t)).set ↔ _
  rw [View.set_slice_whole, Rect.mem_set_unit]
  exact Iff.rfl

/-- Entry (β, n, o) is written by the step with block index (β, n / 200, 0). -/
theorem cover (i : S2x10000x64.Idx) :
    ∃ t : Fin cfg0.N, (cfg0.win 6).flush t = true ∧ i ∈ ((cfg0.win 6).blk t).view.set := by
  have hi0 : (i 0).val < 2 := (i 0).isLt
  have hi1 : (i 1).val < 10000 := (i 1).isLt
  have hi2 : (i 2).val < 64 := (i 2).isLt
  obtain ⟨t, ht⟩ := idx_onto ⟨(i 0).val, hi0⟩ ⟨(i 1).val / 200, by omega⟩
  have q0 : win0_6.index t (0 : Fin 3) = (i 0).val := congrFun ht 0
  have q1 : win0_6.index t (1 : Fin 3) = (i 1).val / 200 := congrFun ht 1
  have q2 : win0_6.index t (2 : Fin 3) = 0 := congrFun ht 2
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 200 ≤ (i 1).val ∧ (i 1).val < win0_6.index t (1 : Fin 3) * 200 + 200
    omega
  | ⟨2, _⟩ =>
    show win0_6.index t (2 : Fin 3) * 64 ≤ (i 2).val ∧ (i 2).val < win0_6.index t (2 : Fin 3) * 64 + 64
    omega

/-- After the last step the result array is the layer of the arrays the region finds. -/
theorem final (c : Dev nD) : (dats m 0 c).arrAt 6 cfg0.N = regionLayer m c :=
  (dats m 0 c).arrAt_eq_of_cover 6 (regionLayer m c) (fun t _ => flushed_eq m c t) cover

end Cert.AnchorMean.Blocks

end
-- ==== Proof.Region.lean ====
/-
  Around the grid. Before the first step the program puts the features batch first, turns every negative anchor index
  into the index from the end, gathers the anchor rows, cuts the weight table into its two halves and reads the bias as
  one row; after the last step it puts the result node first again. So the region finds those arrays, and the
  program's result is the layer of them, transposed.
-/
import proofs.«124689_j8924942041314_1_alg».proof.Proof.Gen.KernelIdeal.Frame
import proofs.«124689_j8924942041314_1_alg».proof.Proof.Blocks
import Idealize.ShloMosaic.Lib.StableHlo.Run
import Idealize.ShloMosaic.Lib.ValueLayout

noncomputable section

namespace Cert.AnchorMean.Region

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.AnchorMean

variable (m : (ℓ : Loc nD τ sig) → Buf (Elt Ideal) ℓ) (ρ : Dev nD → PrngReg)

/-! ## What the region finds -/

/-- The features, batch first. -/
def featsOf (x0 : FVec Ideal S10000x2x64 .f32) : FVec Ideal S2x10000x64 .f32 :=
  transpose S2x10000x64 [1, 0, 2] x0 transposes_S10000x2x64_S2x10000x64_1_0_2

/-- The anchor rows: a negative index counts from the end, then the rows are gathered. -/
def anchorsOf (x0 : FVec Ideal S10000x2x64 .f32) (x2 : IVec S10000x64 32) : FVec Ideal S2x10000x64x64 .f32 :=
  Host.gather gather_S2x10000x64_S10000x64x1_S2x10000x64x64_03_1_n_n_1_2_2164 (featsOf x0)
    (broadcastInDim S10000x64x1 ![0, 1] bcast_S10000x64_S10000x64x1_0_1
      (select (cmpi .slt x2 (broadcastInDim S10000x64 ![] bcast_S_S10000x64 (constantI S_ 32 0#32)))
        (addi x2 (broadcastInDim S10000x64 ![] bcast_S_S10000x64 (constantI S_ 32 10000#32))) x2))

/-- The two halves of the weight table. -/
def waOf (x3 : FVec Ideal S64x128 .f32) : FVec Ideal S64x64 .f32 :=
  extractStridedSlice S64x64 ![0, 0] x3 slices_S64x128_S64x64_0_0
def wsOf (x3 : FVec Ideal S64x128 .f32) : FVec Ideal S64x64 .f32 :=
  extractStridedSlice S64x64 ![0, 64] x3 slices_S64x128_S64x64_0_64

theorem found_feats (c : Dev nD) :
    (V m c main_v0 : S2x10000x64.Idx → EReal) = featsOf (m ((c.tc : Thread nD τ).loc main_arg0)) := by
  show StableHlo.after hostOps0 (fun b => m (c, b)) (Proc.devRef .tc main_v0) = _
  after_results
  rfl

theorem found_anchors (c : Dev nD) :
    (V m c main_v7 : S2x10000x64x64.Idx → EReal)
      = anchorsOf (m ((c.tc : Thread nD τ).loc main_arg0)) (m ((c.tc : Thread nD τ).loc main_arg2)) := by
  show StableHlo.after hostOps0 (fun b => m (c, b)) (Proc.devRef .tc main_v7) = _
  after_results
  rfl

theorem found_wa (c : Dev nD) :
    (V m c main_v8 : S64x64.Idx → EReal) = waOf (m ((c.tc : Thread nD τ).loc main_arg3)) := by
  show StableHlo.after hostOps0 (fun b => m (c, b)) (Proc.devRef .tc main_v8) = _
  after_results
  rfl

theorem found_ws (c : Dev nD) :
    (V m c main_v9 : S64x64.Idx → EReal) = wsOf (m ((c.tc : Thread nD τ).loc main_arg3)) := by
  show StableHlo.after hostOps0 (fun b => m (c, b)) (Proc.devRef .tc main_v9) = _
  after_results
  rfl

theorem found_bias (c : Dev nD) :
    (V m c main_v10 : S1x64.Idx → EReal) = shapeCast S1x64 (m ((c.tc : Thread nD τ).loc main_arg4)) shapeCasts_S64_S1x64 := by
  show StableHlo.after hostOps0 (fun b => m (c, b)) (Proc.devRef .tc main_v10) = _
  after_results
  rfl

/-- The layer of what the region finds, in terms of the program's arguments. -/
theorem regionLayer_eq (c : Dev nD) :
    Blocks.regionLayer m c
      = layer (anchorsOf (m ((c.tc : Thread nD τ).loc main_arg0)) (m ((c.tc : Thread nD τ).loc main_arg2)))
          (m ((c.tc : Thread nD τ).loc main_arg1)) (featsOf (m ((c.tc : Thread nD τ).loc main_arg0)))
          (waOf (m ((c.tc : Thread nD τ).loc main_arg3))) (wsOf (m ((c.tc : Thread nD τ).loc main_arg3)))
          (m ((c.tc : Thread nD τ).loc main_arg4)) := by
  unfold Blocks.regionLayer
  rw [found_anchors, found_feats, found_wa, found_ws, found_bias, V_main_arg1]
  refine congrArg (layer _ _ _ _ _) (funext fun i => ?_)
  obtain ⟨o, rfl⟩ : ∃ o : Fin 64, i = ix1 o := ⟨i 0, eq_ix1 i⟩
  exact shapeCast_a_1a_apply _ _ (0 : Fin 1) o

/-! ## After the grid -/

/-- The program's result: the result array of the grid, node first. -/
theorem tail_eq (c : Dev nD) :
    Pipeline.afterTail₀ cfgs (dats m) 0 (V0 m) [hostOps1] c main_v12
      = transpose S10000x2x64 [1, 0, 2] (Blocks.regionLayer m c) transposes_S2x10000x64_S10000x2x64_1_0_2 := by
  unfold Pipeline.afterTail₀
  show StableHlo.after hostOps1 _ (Proc.devRef .tc main_v12) = _
  after_results
  exact congrArg (fun x => transpose S10000x2x64 [1, 0, 2] x transposes_S2x10000x64_S10000x2x64_1_0_2)
    ((Pipeline.withArrays_arr spec0 launch0.win.arr_inj c _ _ 6).trans (Blocks.final m c))

/-! ## The run, read -/

/-- Every weakly fair execution ends with the result at the layer of what the region finds, node first, and the
    arguments as launched. -/
theorem run : θ_run defs (onTc (τ := τ) (main (F := Ideal))) ⟨m, fun _ => 0, ρ⟩ (fun r => ∀ c : Dev nD,
      r.2.mem ((c.tc : Thread nD τ).loc main_v12)
        = transpose S10000x2x64 [1, 0, 2] (Blocks.regionLayer m c) transposes_S2x10000x64_S10000x2x64_1_0_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.AnchorMean.Region

end
-- ==== Proof.lean ====
/-
  One layer of anchor-set message passing, fused into a grid of steps, against its plain formulation.

  For every batch β, node n and output channel o the layer is
      out(n, β, o) = mean over the 64 anchors a of ( Σ_f (x(idx(n,a), β, f) · d(n,a)) · W(o,f) + Σ_f x(n,β,f) · W(o,64+f) + b(o) ).
  The plain program forms every anchor's message with the node's own term and the bias already added, sums the 64 and
  divides by 64. The fused program gathers the anchor rows first; each of its 100 steps takes 200 nodes of one batch,
  forms all their messages by one product, sums them over the anchors, multiplies by 2⁻⁶, and only then adds the
  node's own term and the bias; the blocks the steps write tile the result.

  On the extended reals the two are equal when the arguments are finite: every message, own term and bias entry is then
  a real number, and for reals 64 copies of (own + bias) divided by 64 are own + bias, while 2⁻⁶ is exactly 1/64
  (Spec: the layer and the mean law; Finite: the precondition read back; RefLayer: the plain program is the layer;
  Body, Blocks, Region: a step's block, the blocks tiling the result, and the program around the grid).
  The three frames are the generated ones (the plain program's is its generated run with the result dropped); the
  idealization rewrote nothing.
-/
import proofs.«124689_j8924942041314_1_alg».proof.Defs
import proofs.«124689_j8924942041314_1_alg».proof.Proof.Gen.Kernel
import proofs.«124689_j8924942041314_1_alg».proof.Proof.Gen.Kernel.Frame
import proofs.«124689_j8924942041314_1_alg».proof.Proof.Gen.KernelIdeal
import proofs.«124689_j8924942041314_1_alg».proof.Proof.Gen.KernelIdeal.Frame
import proofs.«124689_j8924942041314_1_alg».proof.Proof.Gen.ReferenceIdeal
import proofs.«124689_j8924942041314_1_alg».proof.Proof.Gen.Pre_finite_inputs
import proofs.«124689_j8924942041314_1_alg».proof.Proof.Gen.ReferenceIdeal.Run
import proofs.«124689_j8924942041314_1_alg».proof.Proof.Gen.ReferenceIdeal.Read
import proofs.«124689_j8924942041314_1_alg».proof.Proof.Finite
import proofs.«124689_j8924942041314_1_alg».proof.Proof.RefLayer
import proofs.«124689_j8924942041314_1_alg».proof.Proof.Region
import Idealize.ShloMosaic.Adequacy
import Idealize.ShloMosaic.Init

noncomputable section

namespace Cert.Proof

open Idealize.ShloMosaic Idealize.ShloMosaic.TcCoe Idealize.SL.Sem
open Cert.AnchorMean

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs prepare the same arrays from the same arguments: the features batch first, the gathered anchor
    rows, the two halves of the weight table. -/
theorem same_arrays (x0 : FVec Ideal Cert.KernelIdeal.S10000x2x64 .f32) (x1 : FVec Ideal Cert.KernelIdeal.S10000x64 .f32)
    (x2 : IVec Cert.KernelIdeal.S10000x64 32) (x3 : FVec Ideal Cert.KernelIdeal.S64x128 .f32)
    (x4 : FVec Ideal Cert.KernelIdeal.S64 .f32) :
    layer (Cert.ReferenceIdeal.Read.val_main_v7 (F := Ideal) x0 x2) x1 (Cert.ReferenceIdeal.Read.val_main_v0 (F := Ideal) x0)
        (Cert.ReferenceIdeal.Read.val_main_v11 (F := Ideal) x3) (Cert.ReferenceIdeal.Read.val_main_v12 (F := Ideal) x3) x4
      = layer (Region.anchorsOf x0 x2) x1 (Region.featsOf x0) (Region.waOf x3) (Region.wsOf x3) x4 := rfl

/-- Both programs end with the layer of the prepared arrays, node first. -/
theorem algebraic : Cert.algebraic_KernelIdeal_ReferenceIdeal := by
  intro m ρ m' ρ' hpre hagree
  refine ⟨fun c => transpose Cert.KernelIdeal.S10000x2x64 [1, 0, 2] (Blocks.regionLayer m c)
    Cert.KernelIdeal.Facts₀.transposes_S2x10000x64_S10000x2x64_1_0_2, Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨h0, h1, h3, h4⟩ := reals_of_pre _ _ _ _ _ (hpre c)
  refine (Cert.ReferenceIdeal.Read.val_main_v24_eq _ _ _ _ _).trans ?_
  unfold Cert.ReferenceIdeal.Read.val_main_v24
  rw [Ref.mean_eq_layer _ _ _ _ _ h0 h1 h3 h4, same_arrays]
  show _ = transpose Cert.KernelIdeal.S10000x2x64 [1, 0, 2] (Blocks.regionLayer m c) _
  rw [Region.regionLayer_eq]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
